-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  h_S1024x256 : 0 < S1024x256.numel
  inb_S1024x256_S1024x256_0_0 : ∀ a, (![0, 0] : Fin 2 → Nat) a + S1024x256.size a ≤ S1024x256.size a
  reduces_S1024x256_S1024 : S1024x256.Reduces [1] S1024
  shapeCasts_S1024_S1024x1 : S1024.ShapeCasts S1024x1
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 8 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.BodyPiece.lean ====
/-
  What one grid point leaves in its output buffer. The body loads three blocks — a 1024-row strip cut out of the
  whole of `y` at a row offset that depends on the point, the point's 1024 rows of `x`, and a [1, 1024] row of
  squared norms —, computes one 1024 × 1024 value from them, and stores it over the whole output buffer with a
  single store. So the buffer ends holding exactly that value: the body's arithmetic applied to the strip of the
  second buffer's contents at the offset and to the other two buffers' contents whole. Stated for any reading of
  the floats.
-/
import proofs.«120675_j65481071400600_2_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem
open Idealize.ShloMosaic.Tactic

variable {F : FTy → Type} [FloatOps F]

/-- The offsets `[0, 0]` are the zero offsets. -/
theorem zero_offsets : (![0, 0] : Fin 2 → Nat) = fun _ => 0 := funext fun a => by fin_cases a <;> rfl

/-- The output buffer after the body: the arithmetic `k0_pay1` of the strip of `x1` at the point's row offset, of
    `x0` and of `x2`. -/
theorem body_leaves (c : Dev nD) (i : grid0.Coords) (arg2 : Memref sig .tc .vmem S1024x256 .f32) (harg2 : arg2.IsWhole)
    (arg3 : Memref sig .tc .vmem S8192x256 .f32) (harg3 : arg3.IsWhole) (arg4 : Memref sig .tc .vmem S1x1024 .f32) (harg4 : arg4.IsWhole)
    (arg5 : Memref sig .tc .vmem S1024x1024 .f32) (harg5 : arg5.IsWhole)
    (x0 : Vec F S1024x256 .f32) (x1 : Vec F S8192x256 .f32) (x2 : Vec F S1x1024 .f32) :
    out0_A_3 c i arg2 harg2 arg3 harg3 arg4 harg4 arg5 harg5 x0 x1 x2
      = k0_pay1 (View.ld x1 (Rect.unit (s := S8192x256) (k0_off1 i) S1024x256.size (k0_off1_inb i))) x0 x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zero_offsets]
  simp only [View.readAt_eq_ld, harg2.read_unread, harg3.read_unread, harg4.read_unread,
    View.ld_unit_zero (S := S1024x256) zero_offsets, View.ld_unit_zero (S := S1x1024) zero_offsets]

end Cert.KernelIdeal.Tile

end
-- ==== Proof.RbfSpec.lean ====
/-
  The Gaussian (RBF) kernel matrix of two families of 8192 points in dimension 256, as ONE function of the two
  arrays, entry by entry, over the extended reals:

      K[i, j] = exp (-1 · max ((‖xᵢ‖² + ‖yⱼ‖²) − 2 · ⟨xᵢ, yⱼ⟩) 0)

  with ‖·‖² and ⟨·,·⟩ the plain sums over the 256 coordinates. Both programs compute exactly this expression, in
  this grouping, with the same three float words (−1, 2, 0); no law of the extended reals beyond `0 + s = s` is
  needed to join them, so no finiteness either. Also here: the same expression over ONE 1024 × 1024 tile, from a
  tile of `x`, a tile of `y` and the row of squared norms of that tile of `y` — what one grid point computes.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx
open scoped BigOperators

/-- The words the two programs share: −1.0, 2.0 and 0.0 in f32. -/
abbrev negOne : EReal := Ideal.ofBits .f32 0xBF800000#32
abbrev two : EReal := Ideal.ofBits .f32 0x40000000#32
abbrev zero : EReal := Ideal.ofBits .f32 0x00000000#32

/-- The last three steps, shared by every spelling: from the squared norms and the inner product to the entry. -/
def gauss (nx ny ip : EReal) : EReal := Ideal.exp (negOne * max ((nx + ny) - two * ip) zero)

/-- ‖a_r‖²: the sum over the 256 coordinates of row `r` of the squares. -/
def sqNorm {n : Nat} (a : (⟨2, ![n, 256]⟩ : Shape).Idx → EReal) (r : Fin n) : EReal :=
  ∑ k : Fin 256, a (ix2 r k) * a (ix2 r k)

/-- ⟨x_i, y_j⟩: the sum over the 256 coordinates of the products. -/
def inner {n n' : Nat} (x : (⟨2, ![n, 256]⟩ : Shape).Idx → EReal) (y : (⟨2, ![n', 256]⟩ : Shape).Idx → EReal)
    (i : Fin n) (j : Fin n') : EReal :=
  ∑ k : Fin 256, x (ix2 i k) * y (ix2 j k)

/-- THE SPECIFICATION: the whole 8192 × 8192 matrix from the two arrays. -/
def rbf (x y : (⟨2, ![8192, 256]⟩ : Shape).Idx → EReal) : (⟨2, ![8192, 8192]⟩ : Shape).Idx → EReal :=
  fun i => gauss (sqNorm x (i 0)) (sqNorm y (i 1)) (inner x y (i 0) (i 1))

theorem rbf_apply (x y : (⟨2, ![8192, 256]⟩ : Shape).Idx → EReal) (i j : Fin 8192) :
    rbf x y (ix2 i j) = gauss (sqNorm x i) (sqNorm y j) (inner x y i j) := rfl

/-- One tile: entry (p, q) from a 1024-row tile of `x`, a 1024-row tile of `y` and the squared norms of the
    latter's rows, given as a [1, 1024] row. -/
def tile (xt yt : (⟨2, ![1024, 256]⟩ : Shape).Idx → EReal) (ny : (⟨2, ![1, 1024]⟩ : Shape).Idx → EReal)
    (p q : Fin 1024) : EReal :=
  gauss (sqNorm xt p) (ny (ix2 0 q)) (inner xt yt p q)

end Cert.Rbf

end
-- ==== Proof.LibKeepdims.lean ====
import Idealize.ShloMosaic.Lib.ValueIdx
import Idealize.ShloMosaic.Lib.Pipeline.Value
import Idealize.ShloMosaic.PureOps.Ideal.Laws

/-!
# A row reduction that keeps its axis, read at an index

What `jnp.sum(v, axis=-1, keepdims=True)` and its use against a matrix become inside a kernel body, each read at an
index written by its coordinates:

* the lane sum of an [n, c] array into [n] at the ideal instance: entry `r` is `∑ k, src (r, k)`;
* a vector [a] recast as a column [a, 1]: entry `(p, 0)` is entry `p`;
* a column [a, 1] broadcast to [a, b]: entry `(p, q)` is entry `(p, 0)`;
* a matrix product contracting BOTH operands on their axis 1 ([m, k] times [n, k] transposed) into the zero
  accumulator at the ideal instance: entry `(r, c)` is `∑ k, lhs (r, k) * rhs (c, k)`, for a kernel's `tpu.matmul`
  and for the host's `dot_general`.

The layout lemmas do not depend on what the entries are.
-/

noncomputable section

namespace Cert.LibKeepdims

open Idealize.ShloMosaic Idealize.ShloMosaic.ValueIdx
open scoped BigOperators

section Layout
variable {α : Type}

/-- A vector recast as a column: the same numbers in the same order. -/
theorem columnOfVector_cast_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h (ix2 p z) (ix1 p) (by
    have hz : z.val = 0 := by omega
    rw [Shape.rowMajor_val_two, Shape.rowMajor_val_one]
    show p.val = p.val * 1 + z.val
    omega)

/-- A column broadcast along the rows' direction: every entry of row `p` is the column's entry `p`. -/
theorem broadcastTo_a1_ab_at {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The lane sum (a `vector.multi_reduction <add>` over axis 1 from the neutral word) at row `r`. -/
theorem laneSum_at {n c : ℕ} (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ k : Fin c, src (ix2 r k) := by
  refine (Ideal.multiReduction_add_single src acc h hφ hacc (ix1 r)).trans ?_
  refine Finset.sum_congr rfl fun k _ => congrArg src ?_
  funext d
  apply Fin.ext
  match d with
  | ⟨0, _⟩ => rfl
  | ⟨1, _⟩ => rfl

/-- The dimension numbers of a product contracting both operands on their axis 1 (`A · Bᵀ`); their conditions
    `wf` are decided on a program's literal shapes. -/
abbrev abtDot (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : ℕ} (wf : DotDims.WF ⟨2, ![M, K]⟩ ⟨2, ![N, K]⟩ ⟨2, ![M, N]⟩ [1] [1] [0] [0] [] [])

/-- At result index `(r, c)` and contraction coordinate `k` the left operand is read at `(r, k)` … -/
theorem abt_lhsIdx (r : Fin M) (c : Fin N) (k : Fin K) :
    (abtDot M K N wf).lhsIdx (ix2 r c) ((contrEquiv1 (abtDot M K N wf) K rfl rfl).symm k) = ix2 r k := by
  funext a
  refine Fin.ext ?_
  match a with
  | ⟨0, _⟩ => rfl
  | ⟨1, _⟩ => rfl

/-- … and the right operand at `(c, k)`. -/
theorem abt_rhsIdx (r : Fin M) (c : Fin N) (k : Fin K) :
    (abtDot M K N wf).rhsIdx (ix2 r c) ((contrEquiv1 (abtDot M K N wf) K rfl rfl).symm k) = ix2 c k := by
  funext a
  refine Fin.ext ?_
  match a with
  | ⟨0, _⟩ => rfl
  | ⟨1, _⟩ => rfl

/-- The contraction's sum over its index set is the sum over `k : Fin K` of `lhs (r, k) * rhs (c, k)`. -/
theorem abt_contr_sum (lhs : (⟨2, ![M, K]⟩ : Shape).Idx → EReal) (rhs : (⟨2, ![N, K]⟩ : Shape).Idx → EReal)
    (r : Fin M) (c : Fin N) :
    (∑ k : (abtDot M K N wf).contr.Idx,
        lhs ((abtDot M K N wf).lhsIdx (ix2 r c) k) * rhs ((abtDot M K N wf).rhsIdx (ix2 r c) k)) =
      ∑ k : Fin K, lhs (ix2 r k) * rhs (ix2 c k) := by
  rw [← Equiv.sum_comp (contrEquiv1 (abtDot M K N wf) K rfl rfl).symm]
  refine Finset.sum_congr rfl fun k _ => ?_
  rw [abt_lhsIdx, abt_rhsIdx]

/-- A kernel's `tpu.matmul` of this form into the zero splat, read at `(r, c)`. -/
theorem matmul_abt_zero_at {φ₁ φ₂ : FTy} (prec : Option ContractPrecision) (lhs : FVec Ideal ⟨2, ![M, K]⟩ φ₁)
    (rhs : FVec Ideal ⟨2, ![N, K]⟩ φ₂) (r : Fin M) (c : Fin N) :
    matmul (F := Ideal) (abtDot M K N wf) prec lhs rhs (constant ⟨2, ![M, N]⟩ .f32 0x00000000#32) (ix2 r c) =
      ∑ k : Fin K, lhs (ix2 r k) * rhs (ix2 c k) := by
  refine (Ideal.matmul_constant_zero_apply (abtDot M K N wf) prec lhs rhs (ix2 r c)).trans ?_
  exact abt_contr_sum wf lhs rhs r c

/-- The host's `dot_general` of this form, read at `(r, c)`. -/
theorem dotGeneral_abt_at {φ₁ φ₂ : FTy} (prec : Option ContractPrecision) (lhs : FVec Ideal ⟨2, ![M, K]⟩ φ₁)
    (rhs : FVec Ideal ⟨2, ![N, K]⟩ φ₂) (r : Fin M) (c : Fin N) :
    Host.dotGeneral (F := Ideal) (abtDot M K N wf) prec lhs rhs (ix2 r c) = ∑ k : Fin K, lhs (ix2 r k) * rhs (ix2 c k) := by
  refine (Ideal.dotGeneral_apply (abtDot M K N wf) prec .single lhs rhs (ix2 r c)).trans ?_
  exact abt_contr_sum wf lhs rhs r c

end Sums

end Cert.LibKeepdims

end
-- ==== Proof.TileAt.lean ====
/-
  The body's arithmetic at one entry (p, q) of its 1024 × 1024 value, over the extended reals, from the three
  blocks it loaded: the lane sum of the squares of row `p` of the tile of `x` (kept as a column and broadcast along the
  row), the entry `q` of the row of squared norms (broadcast down the columns), and the matrix unit's product of
  the two tiles contracted on their 256 coordinates (into a zero accumulator, its operands narrowed to bf16, which
  changes nothing here) — combined as exp (−1 · max ((a + b) − 2 · c) 0). That is `Cert.Rbf.tile`.
-/
import proofs.«120675_j65481071400600_2_alg».proof.Proof.Gen.KernelIdeal.Skeleton
import proofs.«120675_j65481071400600_2_alg».proof.Proof.RbfSpec
import proofs.«120675_j65481071400600_2_alg».proof.Proof.LibKeepdims
import Idealize.ShloMosaic.Lib.Pipeline.Value
import Idealize.ShloMosaic.Lib.ValueLayout
import Idealize.ShloMosaic.Lib.ValueIdx

noncomputable section

namespace Cert.KernelIdeal.Tile

open Cert.KernelIdeal Cert.KernelIdeal.Gen Idealize.ShloMosaic Idealize.ShloMosaic.ValueIdx
open scoped BigOperators

/-- The squared norm of row `p` of the tile of `x`, as the body computes and lays it out: the lane sum of the squares,
    kept as a column, broadcast along the row. -/
theorem sqNorm_at (v4 : Vec Ideal S1024x256 .f32) (hφ : FKind.Formats .f32)
    (hacc : (0x00000000#32 : BitVec (FTy.bits .f32)) = FKind.add.neutral .f32 hφ) (p q : Fin 1024) :
    broadcastTo S1024x1024
        (shapeCast S1024x1 (multiReduction (F := Ideal) .add [1] S1024 (mulf v4 v4) 0x00000000#32 reduces_S1024x256_S1024 hφ hacc)
          shapeCasts_S1024_S1024x1)
        broadcasts_S1024x1_S1024x1024 (ix2 p q)
      = Cert.Rbf.sqNorm v4 p :=
  (Cert.LibKeepdims.broadcastTo_a1_ab_at _ broadcasts_S1024x1_S1024x1024 p q).trans
    ((Cert.LibKeepdims.columnOfVector_cast_at _ shapeCasts_S1024_S1024x1 p 0).trans
      (Cert.LibKeepdims.laneSum_at (mulf v4 v4) _ reduces_S1024x256_S1024 hφ hacc p))

/-- The squared norm of row `q` of the tile of `y`, handed to the body as a [1, 1024] row and broadcast down the
    columns. -/
theorem rowNorm_at (v11 : Vec Ideal S1x1024 .f32) (p q : Fin 1024) :
    broadcastTo S1024x1024 (shapeCast S1x1024 v11 shapeCasts_S1x1024_S1x1024) broadcasts_S1x1024_S1024x1024 (ix2 p q)
      = v11 (ix2 (0 : Fin 1) q) :=
  (broadcastTo_1b_ab_apply _ broadcasts_S1x1024_S1024x1024 p q).trans
    (congrFun (shapeCast_self v11 shapeCasts_S1x1024_S1x1024) _)

/-- The inner product of row `p` of the tile of `x` and row `q` of the tile of `y`: the matrix unit's product of
    the two tiles, both contracted on their 256 coordinates (the narrowing to bf16 on the way in is the identity on
    extended reals). -/
theorem inner_at (v3 v4 : Vec Ideal S1024x256 .f32) (p q : Fin 1024) :
    matmul (F := Ideal) dot_S1024x256_S1024x256_S1024x1024_1_1_0_0_n_n none (truncf .bf16 v4 bitsLt_bf16_f32)
        (truncf .bf16 v3 bitsLt_bf16_f32) (constant S1024x1024 .f32 0x00000000#32) (ix2 p q)
      = Cert.Rbf.inner v4 v3 p q :=
  Cert.LibKeepdims.matmul_abt_zero_at dot_S1024x256_S1024x256_S1024x1024_1_1_0_0_n_n_wf none
    (truncf .bf16 v4 bitsLt_bf16_f32) (truncf .bf16 v3 bitsLt_bf16_f32) p q

/-- ONE ENTRY OF WHAT A GRID POINT STORES: from the tile of `y` (`v3`), the tile of `x` (`v4`) and the row of squared
    norms of the former (`v11`), entry (p, q) is the Gaussian of the squared distance expanded as
    ‖x_p‖² + ‖y_q‖² − 2⟨x_p, y_q⟩, clamped at 0. -/
theorem payload_at (v3 v4 : Vec Ideal S1024x256 .f32) (v11 : Vec Ideal S1x1024 .f32) (p q : Fin 1024) :
    k0_pay1 (F := Ideal) v3 v4 v11 (ix2 p q) = Cert.Rbf.tile v4 v3 v11 p q := by
  unfold k0_pay1
  dsimp only
  unfold Cert.Rbf.tile Cert.Rbf.gauss
  refine congrArg Ideal.exp (congrArg (Cert.Rbf.negOne * ·) (congrArg₂ max (congrArg₂ (· - ·)
    (congrArg₂ (· + ·) (sqNorm_at v4 _ _ p q) (rowNorm_at v11 p q))
    (congrArg (Cert.Rbf.two * ·) (inner_at v3 v4 p q))) rfl))

end Cert.KernelIdeal.Tile

end
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.LibHostRowOps.lean ====
/-
  Host reductions along the columns of a matrix, read at a row.

  A host sum over axis 1 of an [N, C] array, at row p, is the initial value plus the sum of the row's entries; a host
  maximum over axis 1, at row p, is the fold of max from the initial value over the row's entries. Both are the
  library's one-axis readings with the inserted index written out by its coordinates: the source index over row p with
  coordinate q on the dropped axis is (p, q).
  General: nothing here depends on a particular program.
-/
import Idealize.ShloMosaic.Lib.ValueIdx
import Idealize.ShloMosaic.Lib.Pipeline.Value
import Idealize.ShloMosaic.Lib.IdealHost
import Idealize.ShloMosaic.PureOps.Ideal.Laws
import Idealize.ShloMosaic.PureOps.Reduce

noncomputable section

open scoped BigOperators

namespace Cert.LibHostRowOps

open Idealize.ShloMosaic Idealize.ShloMosaic.ValueIdx

variable {N C : Nat}

/-- The kept-axes fact of a host reduction into a vector is the one of a vector reduction. -/
theorem reduces_of (h' : (⟨2, ![N, C]⟩ : Shape).ReducesTo [1] ⟨1, ![N]⟩) : (⟨2, ![N, C]⟩ : Shape).Reduces [1] ⟨1, ![N]⟩ :=
  ⟨h'.1, Nat.one_pos, h'.2⟩

/-- Over row p, the source index with coordinate q on the dropped axis is (p, q). -/
theorem lift_row (h : (⟨2, ![N, C]⟩ : Shape).Reduces [1] ⟨1, ![N]⟩) (p : Fin N)
    (q : Fin ((⟨2, ![N, C]⟩ : Shape).size 1)) : h.lift (ix1 p) q = ix2 p (q : Fin C) := by
  funext c
  apply Fin.ext
  match c with
  | ⟨0, _⟩ => rfl
  | ⟨1, _⟩ => rfl

/-- A host sum along the columns, at row p: the initial value plus the row's sum. -/
theorem rowSum_at (x : FVec Ideal (⟨2, ![N, C]⟩ : Shape) .f32) (init : (⟨0, ![]⟩ : Shape).Idx → Ideal .f32)
    (h' : (⟨2, ![N, C]⟩ : Shape).ReducesTo [1] ⟨1, ![N]⟩) (hu : 0 < (⟨0, ![]⟩ : Shape).numel) (p : Fin N) :
    Host.reduceAdd x init h' hu (ix1 p) = init ix0 + ∑ q : Fin C, x (ix2 p q) := by
  rw [hostReduceAdd_apply, Ideal.hostReduceAdd_single h' (reduces_of h')]
  congr 1
  · exact congrArg init (funext fun a => a.elim0)
  · exact Finset.sum_congr rfl fun q _ => congrArg x (lift_row (reduces_of h') p q)

/-- A host sum along the columns from the zero word, at row p: the row's sum. -/
theorem rowSum_zero_at (x : FVec Ideal (⟨2, ![N, C]⟩ : Shape) .f32)
    (h' : (⟨2, ![N, C]⟩ : Shape).ReducesTo [1] ⟨1, ![N]⟩) (hu : 0 < (⟨0, ![]⟩ : Shape).numel) (p : Fin N) :
    Host.reduceAdd x (constant (F := Ideal) (⟨0, ![]⟩ : Shape) .f32 0x00000000#32) h' hu (ix1 p) = ∑ q : Fin C, x (ix2 p q) := by
  rw [rowSum_at]
  show Ideal.ofBits .f32 0x00000000#32 + _ = _
  rw [Ideal.ofBits_zero_f32, zero_add]

/-- A host maximum along the columns, at row p: the fold of max from the initial value over the row. -/
theorem rowMax_at (x : FVec Ideal (⟨2, ![N, C]⟩ : Shape) .f32) (init : (⟨0, ![]⟩ : Shape).Idx → Ideal .f32)
    (h' : (⟨2, ![N, C]⟩ : Shape).ReducesTo [1] ⟨1, ![N]⟩) (hu : 0 < (⟨0, ![]⟩ : Shape).numel) (p : Fin N) :
    Host.reduce (FloatOps.maximumf (F := Ideal) (φ := .f32)) x init h' hu (ix1 p)
      = (Finset.univ : Finset (Fin C)).fold max (init ix0) (fun q => x (ix2 p q)) := by
  have e : (FloatOps.maximumf (F := Ideal) (φ := .f32)) = (max : EReal → EReal → EReal) := rfl
  rw [e, Host.reduce_eq_fold_single (max : EReal → EReal → EReal) x init h' (reduces_of h') hu (ix1 p)]
  congr 1
  · exact congrArg init (funext fun a => a.elim0)
  · funext q
    exact congrArg x (lift_row (reduces_of h') p q)

end Cert.LibHostRowOps

end
-- ==== Proof.KernelValue.lean ====
/-
  The tiled program's result array is the specification of its two arguments.

  Before the grid starts the program sums the squares of every row of `y`, lays the 8192 sums out as a column and
  transposes it into a [1, 8192] row: entry (0, n) is ‖y_n‖² (`normsRow_at`). At grid point `t`, with block indices
  (bi, bj) of its output tile, the three input windows hand the body rows 1024·bi + p of `x` (`xTile_at`), the whole
  of `y` (`yAll_at`; the body cuts rows 1024·bj + q out of it, `yTile_at`), and entries 1024·bj + q of the row of
  norms (`normsTile_at`). So entry (p, q) of what the point stores is the specification at
  (1024·bi + p, 1024·bj + q) (`stored_at`), which is where the write-back puts it (`flushed_eq`). The 64 tiles cover
  the 8192 × 8192 matrix (`covered`): entry (i, j) lies in the tile of the point with block indices
  (i / 1024, j / 1024). Hence the array after the run (`final`, `run`).
-/
import proofs.«120675_j65481071400600_2_alg».proof.Proof.Gen.KernelIdeal.Value
import proofs.«120675_j65481071400600_2_alg».proof.Proof.BodyPiece
import proofs.«120675_j65481071400600_2_alg».proof.Proof.TileAt
import proofs.«120675_j65481071400600_2_alg».proof.Proof.LibColumnVec
import proofs.«120675_j65481071400600_2_alg».proof.Proof.LibHostRowOps
import Idealize.ShloMosaic.Lib.StableHlo.Run
import Idealize.ShloMosaic.Lib.ValueLayout
import Idealize.ShloMosaic.Lib.Pipeline.Value

noncomputable section

namespace Cert.KernelIdeal.Whole

open Cert.KernelIdeal Cert.KernelIdeal.Gen Cert.KernelIdeal.Value Cert.KernelIdeal.Tile
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- Row `p` of tile `b` (of 8 tiles of 1024 rows) is row `1024 b + p` of the array. -/
abbrev row (b : Fin 8) (p : Fin 1024) : Fin 8192 := ⟨b.val * 1024 + p.val, by omega⟩

/-! ## The squared norms of `y`, computed before the grid starts -/

/-- The row of squared norms as the grid finds it: the operations that computed it, applied to `y` as launched. -/
theorem normsRow_eq (c : Dev nD) :
    (V m c main_v3 : S1x8192.Idx → EReal)
      = transpose S1x8192 [1, 0]
          (broadcastInDim S8192x1 ![0] bcast_S8192_S8192x1_0
            (Host.reduceAdd (F := Ideal)
              (mulf (m ((c : Thread nD τ).loc main_arg1)) (m ((c : Thread nD τ).loc main_arg1)))
              (constant (F := Ideal) S_ .f32 0x00000000#32) reducesTo_S8192x256_S8192_d1 h_S_))
          transposes_S8192x1_S1x8192_1_0 := by
  dsimp only [Gen.V, Gen.hostOps0]
  after_results

/-- Entry (0, n) of that row is ‖y_n‖²: the transpose reads the column at (n, 0), the column is the vector of row
    sums, and the sum from the zero word is the plain sum. -/
theorem normsRow_at (c : Dev nD) (n : Fin 8192) :
    (V m c main_v3 : S1x8192.Idx → EReal) (ix2 (0 : Fin 1) n)
      = Cert.Rbf.sqNorm (m ((c : Thread nD τ).loc main_arg1)) n := by
  rw [normsRow_eq]
  refine (transpose_ix2_apply _ transposes_S8192x1_S1x8192_1_0 (0 : Fin 1) n).trans ?_
  refine (Cert.LibColumnVec.columnOfVector_at _ bcast_S8192_S8192x1_0 n).trans ?_
  exact Cert.LibHostRowOps.rowSum_zero_at _ reducesTo_S8192x256_S8192_d1 h_S_ n

/-! ## The grid: which tiles point `t` reads and writes -/

/-- Decided over the 64 points: the tile of `x` moves with the output tile's row index, the window on `y` never
    moves, the tile of the norms moves with the output tile's column index, the strip the body cuts out of `y` starts at
    row 1024 times that column index, and both block indices are below 8. -/
theorem point_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = win0_3.index t (1 : Fin 2)
    ∧ k0_off1 (grid0.coords t) (0 : Fin 2) = win0_3.index t (1 : Fin 2) * 1024
    ∧ k0_off1 (grid0.coords t) (1 : Fin 2) = 0
    ∧ win0_3.index t (0 : Fin 2) ≤ 7
    ∧ win0_3.index t (1 : Fin 2) ≤ 7 :=
  (by decide +kernel : ∀ t : Fin grid0.N, _)

/-- Every pair of block indices below 8 is some point's. -/
theorem tiles_onto : ∀ (q0 q1 : Fin 8), ∃ t : Fin cfg0.N, win0_3.index t = ![q0.val, q1.val] :=
  (by decide +kernel : ∀ (q0 q1 : Fin 8), ∃ t : Fin grid0.N, win0_3.index t = ![q0.val, q1.val])

/-! ## What the three input windows hand the body at point `t` -/

/-- Window 0's block at point `t`: rows `1024 bi + p` of `x`. -/
theorem xTile_at (c : Dev nD) (t : Fin cfg0.N) (bi : Fin 8) (hbi : win0_3.index t (0 : Fin 2) = bi.val)
    (p : Fin 1024) (k : Fin 256) :
    (iblk m c 0 t : Vec Ideal S1024x256 .f32) (ix2 p k)
      = (m ((c : Thread nD τ).loc main_arg0) : S8192x256.Idx → EReal) (ix2 (row bi p) k) := by
  obtain ⟨e0, e1, -⟩ := point_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = bi.val * 1024 + p.val; omega
  | ⟨1, _⟩ => show win0_0.index t (1 : Fin 2) * 256 + 1 * k.val = k.val; omega

/-- Window 1's block at every point: the whole of `y`. -/
theorem yAll_at (c : Dev nD) (t : Fin cfg0.N) (i : S8192x256.Idx) :
    (iblk m c 1 t : Vec Ideal S8192x256 .f32) i
      = (m ((c : Thread nD τ).loc main_arg1) : S8192x256.Idx → EReal) i := by
  obtain ⟨-, -, e2, e3, -⟩ := point_facts t
  unfold iblk
  rw [View.read_apply]
  show V m c main_arg1 _ = _
  rw [V_main_arg1]
  refine congrArg _ (funext fun a => Fin.ext ?_)
  match a with
  | ⟨0, _⟩ => show win0_1.index t (0 : Fin 2) * 8192 + 1 * (i 0).val = (i 0).val; omega
  | ⟨1, _⟩ => show win0_1.index t (1 : Fin 2) * 256 + 1 * (i 1).val = (i 1).val; omega

/-- Window 2's block at point `t`: entries `1024 bj + q` of the row of squared norms of `y`. -/
theorem normsTile_at (c : Dev nD) (t : Fin cfg0.N) (bj : Fin 8) (hbj : win0_3.index t (1 : Fin 2) = bj.val)
    (q : Fin 1024) :
    (iblk m c 2 t : Vec Ideal S1x1024 .f32) (ix2 (0 : Fin 1) q)
      = Cert.Rbf.sqNorm (m ((c : Thread nD τ).loc main_arg1)) (row bj q) := by
  obtain ⟨-, -, -, -, e4, e5, -⟩ := point_facts t
  refine Eq.trans ?_ (normsRow_at m c (row bj q))
  unfold iblk
  rw [View.read_apply]
  show V m c main_v3 _ = V m c main_v3 _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = bj.val * 1024 + q.val; omega

/-- The strip of `y` the body cuts out of the whole resident array at point `t`: rows `1024 bj + q`. -/
theorem yTile_at (c : Dev nD) (t : Fin cfg0.N) (bj : Fin 8) (hbj : win0_3.index t (1 : Fin 2) = bj.val)
    (q : Fin 1024) (k : Fin 256) :
    (View.ld (iblk m c 1 t : Vec Ideal S8192x256 .f32)
        (Rect.unit (s := S8192x256) (k0_off1 (grid0.coords t)) S1024x256.size (k0_off1_inb (grid0.coords t)))
        : S1024x256.Idx → EReal) (ix2 q k)
      = (m ((c : Thread nD τ).loc main_arg1) : S8192x256.Idx → EReal) (ix2 (row bj q) k) := by
  obtain ⟨-, -, -, -, -, -, e6, e7, -⟩ := point_facts t
  show (iblk m c 1 t : Vec Ideal S8192x256 .f32) _ = _
  rw [yAll_at]
  refine congrArg _ (funext fun a => Fin.ext ?_)
  match a with
  | ⟨0, _⟩ => show k0_off1 (grid0.coords t) (0 : Fin 2) + 1 * q.val = bj.val * 1024 + q.val; omega
  | ⟨1, _⟩ => show k0_off1 (grid0.coords t) (1 : Fin 2) + 1 * k.val = k.val; omega

/-! ## What point `t` stores is its tile of the specification -/

/-- Entry `j` of what the body computes at point `t` is the specification at the entry of the matrix that the
    point's tile puts it at: the three blocks are the right rows of the arguments, sum by sum. -/
theorem stored_at (c : Dev nD) (t : Fin cfg0.N) (bi bj : Fin 8) (hbi : win0_3.index t (0 : Fin 2) = bi.val)
    (hbj : win0_3.index t (1 : Fin 2) = bj.val) (j : S1024x1024.Idx) :
    k0_pay1 (F := Ideal)
        (View.ld (iblk m c 1 t : Vec Ideal S8192x256 .f32)
          (Rect.unit (s := S8192x256) (k0_off1 (grid0.coords t)) S1024x256.size (k0_off1_inb (grid0.coords t))))
        (iblk m c 0 t) (iblk m c 2 t) j
      = Cert.Rbf.rbf (m ((c : Thread nD τ).loc main_arg0)) (m ((c : Thread nD τ).loc main_arg1))
          (ix2 (row bi (j 0)) (row bj (j 1))) := by
  obtain ⟨p, q, rfl⟩ : ∃ (p q : Fin 1024), j = ix2 p q := ⟨j 0, j 1, eq_ix2 j⟩
  rw [payload_at, Cert.Rbf.rbf_apply]
  unfold Cert.Rbf.tile
  have h1 : Cert.Rbf.sqNorm (iblk m c 0 t : Vec Ideal S1024x256 .f32) p
      = Cert.Rbf.sqNorm (m ((c : Thread nD τ).loc main_arg0)) (row bi p) :=
    Finset.sum_congr rfl fun k _ => by rw [xTile_at m c t bi hbi p k]
  have h2 := normsTile_at m c t bj hbj q
  have h3 : Cert.Rbf.inner (iblk m c 0 t : Vec Ideal S1024x256 .f32)
        (View.ld (iblk m c 1 t : Vec Ideal S8192x256 .f32)
          (Rect.unit (s := S8192x256) (k0_off1 (grid0.coords t)) S1024x256.size (k0_off1_inb (grid0.coords t)))) p q
      = Cert.Rbf.inner (m ((c : Thread nD τ).loc main_arg0)) (m ((c : Thread nD τ).loc main_arg1)) (row bi p) (row bj q) :=
    Finset.sum_congr rfl fun k _ => by rw [xTile_at m c t bi hbi p k, yTile_at m c t bj hbj q k]
  rw [h1, h2, h3]

/-- WHAT POINT `t` WRITES BACK is block `t` of the specification of the two argument arrays. -/
theorem flushed_eq (c : Dev nD) (t : Fin cfg0.N) :
    (dats m 0 c).flushed 3 t
      = ((cfg0.win 3).blk t).view.read (Elt Ideal)
          (Cert.Rbf.rbf (m ((c : Thread nD τ).loc main_arg0)) (m ((c : Thread nD τ).loc main_arg1))) := by
  obtain ⟨-, -, -, -, -, -, -, -, l0, l1⟩ := point_facts t
  rw [flushed3_A, body_leaves]
  funext j
  rw [View.read_apply]
  refine (stored_at m c t ⟨win0_3.index t (0 : Fin 2), by omega⟩ ⟨win0_3.index t (1 : Fin 2), by omega⟩ rfl rfl j).trans ?_
  show Cert.Rbf.rbf _ _ _ = Cert.Rbf.rbf _ _ _
  refine congrArg _ (funext fun a => Fin.ext ?_)
  match a with
  | ⟨0, _⟩ =>
    show win0_3.index t (0 : Fin 2) * 1024 + (j 0).val = win0_3.index t (0 : Fin 2) * 1024 + 1 * (j 0).val
    omega
  | ⟨1, _⟩ =>
    show win0_3.index t (1 : Fin 2) * 1024 + (j 1).val = win0_3.index t (1 : Fin 2) * 1024 + 1 * (j 1).val
    omega

/-! ## The 64 tiles cover the matrix -/

/-- An index of the matrix is in point `t`'s block iff each coordinate is in the block's range on its axis. -/
theorem mem_block (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every entry lies in the tile of the point whose block indices are its coordinates divided by 1024. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := tiles_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the run: the specification of the two argument arrays. -/
theorem final (c : Dev nD) :
    (dats m 0 c).arrAt 3 cfg0.N
      = Cert.Rbf.rbf (m ((c : Thread nD τ).loc main_arg0)) (m ((c : Thread nD τ).loc main_arg1)) :=
  (dats m 0 c).arrAt_eq_of_cover 3 _ (fun t _ => flushed_eq m c t) covered

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v4)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefIsRbf.lean ====
/-
  The plain program's result is the specification. Reading its operations one at a time at entry (a, b): the two
  row sums of squares start from the zero word (0 + ∑ₖ x(a,k)², 0 + ∑ₖ y(b,k)²) and are laid out as a column and as
  a row before being broadcast; the product contracts both arrays on their 256 coordinates (∑ₖ x(a,k)·y(b,k)); then
  (‖x_a‖² + ‖y_b‖²) − 2·⟨x_a, y_b⟩, the maximum with 0, the product with −1 and the exponential. With `0 + s = s`
  this is `Cert.Rbf.rbf` at (a, b).
-/
import proofs.«120675_j65481071400600_2_alg».proof.Proof.Gen.ReferenceIdeal.Read
import proofs.«120675_j65481071400600_2_alg».proof.Proof.RbfSpec

noncomputable section

namespace Cert.ReferenceIdeal.IsRbf

open Cert.ReferenceIdeal Cert.ReferenceIdeal.Read Idealize.ShloMosaic Idealize.ShloMosaic.ValueIdx
open scoped BigOperators

/-- The last stage of the plain program, as a function of the two arrays, is the specification. -/
theorem result_is_rbf (x y : S8192x256.Idx → EReal) :
    val_main_v17 (F := Ideal) x y = Cert.Rbf.rbf x y := by
  funext i
  obtain ⟨a, b, rfl⟩ : ∃ (a b : Fin 8192), i = ix2 a b := ⟨i 0, i 1, eq_ix2 i⟩
  rw [Cert.Rbf.rbf_apply, val_main_v17_apply, val_main_v16_apply, val_main_v15_apply, val_main_cst_3_apply,
    val_main_v14_apply, val_main_v13_apply, val_main_cst_2_apply, val_main_v12_apply, val_main_v9_apply,
    val_main_v11_apply, val_main_v10_apply, val_main_cst_1_apply, val_main_v7_apply, val_main_v5_apply,
    val_main_v1_apply, val_main_v8_apply, val_main_v6_apply, val_main_v3_apply, val_main_v4_apply,
    val_main_cst_apply, val_main_cst_0_apply]
  have e1 : ∀ k : Fin 256, idx_main_v1 (idx_main_v5 (idx_main_v7 (ix2 a b))) k = ix2 a k := fun k =>
    funext fun d => Fin.ext (by match d with | ⟨0, _⟩ => rfl | ⟨1, _⟩ => rfl)
  have e2 : ∀ k : Fin 256, idx_main_v3 (idx_main_v6 (idx_main_v8 (ix2 a b))) k = ix2 b k := fun k =>
    funext fun d => Fin.ext (by match d with | ⟨0, _⟩ => rfl | ⟨1, _⟩ => rfl)
  have e3 : ∀ k : Fin 256, lidx_main_v4 (ix2 a b) k = ix2 a k := fun k =>
    funext fun d => Fin.ext (by match d with | ⟨0, _⟩ => rfl | ⟨1, _⟩ => rfl)
  have e4 : ∀ k : Fin 256, ridx_main_v4 (ix2 a b) k = ix2 b k := fun k =>
    funext fun d => Fin.ext (by match d with | ⟨0, _⟩ => rfl | ⟨1, _⟩ => rfl)
  simp only [e1, e2, e3, e4, val_main_v0_apply, val_main_v2_apply, Ideal.ofBits_def, Ideal.mulf_def, Ideal.addf_def,
    Ideal.subf_def, Ideal.maximumf_def, Ideal.hostUnary_exp_def, Cert.Rbf.gauss, Cert.Rbf.sqNorm, Cert.Rbf.inner,
    Ideal.ofBits_zero_f32, zero_add]

end Cert.ReferenceIdeal.IsRbf

end
-- ==== Proof.lean ====
/-
  The Gaussian (RBF) kernel matrix K[i, j] = exp (−‖xᵢ − yⱼ‖²) of two families of 8192 points in dimension 256,
  with the squared distance expanded as ‖xᵢ‖² + ‖yⱼ‖² − 2⟨xᵢ, yⱼ⟩ and clamped at zero.

  The tiled program cuts the 8192 × 8192 matrix into 64 tiles of 1024 × 1024, one per grid point (bi, bj). At a
  point it holds rows 1024·bi … of `x`, all of `y` (of which it cuts rows 1024·bj …), and the squared norms of those
  rows of `y` (summed once, before the grid, and laid out as a row); it sums the squares of its rows of `x`, takes
  the 1024 × 1024 product of the two strips over their 256 coordinates, and stores exp (−1 · max (… − 2 · …) 0).
  The plain program does the same on the whole arrays at once.

  At the ideal instance both are ONE function of the two arrays, entry by entry (`Cert.Rbf.rbf`, Proof/RbfSpec.lean):
  the same sums over the 256 coordinates, the same grouping (‖x‖² + ‖y‖²) − 2·⟨x, y⟩, the same three float words
  −1, 2, 0, and the narrowing of the product's operands to bf16 is the identity on extended reals. The only law
  used between the two spellings is `0 + s = s` (the plain program's sums start from a zero word, the tiled
  program's lane sum does not), so the finiteness of the inputs is never opened.

  Modules: RbfSpec (the function), RefIsRbf (the plain program's result is it), BodyPiece (what one grid point leaves
  in its output buffer is the body's arithmetic of its three loaded blocks), TileAt (that arithmetic at an entry),
  KernelValue (the blocks are the right rows of the arguments; each point writes back its tile of the function; the
  tiles cover the matrix), LibKeepdims / LibColumnVec / LibHostRowOps (layout and sum readings, general).
-/
import proofs.«120675_j65481071400600_2_alg».proof.Defs
import proofs.«120675_j65481071400600_2_alg».proof.Proof.Gen.Kernel
import proofs.«120675_j65481071400600_2_alg».proof.Proof.Gen.Kernel.Skeleton
import proofs.«120675_j65481071400600_2_alg».proof.Proof.Gen.Kernel.Launch
import proofs.«120675_j65481071400600_2_alg».proof.Proof.Gen.Kernel.Points
import proofs.«120675_j65481071400600_2_alg».proof.Proof.Gen.Kernel.Frame
import proofs.«120675_j65481071400600_2_alg».proof.Proof.Gen.KernelIdeal
import proofs.«120675_j65481071400600_2_alg».proof.Proof.Gen.KernelIdeal.Skeleton
import proofs.«120675_j65481071400600_2_alg».proof.Proof.Gen.KernelIdeal.Launch
import proofs.«120675_j65481071400600_2_alg».proof.Proof.Gen.KernelIdeal.Points
import proofs.«120675_j65481071400600_2_alg».proof.Proof.Gen.KernelIdeal.Frame
import proofs.«120675_j65481071400600_2_alg».proof.Proof.Gen.ReferenceIdeal
import proofs.«120675_j65481071400600_2_alg».proof.Proof.Gen.Pre_finite_inputs
import proofs.«120675_j65481071400600_2_alg».proof.Proof.Gen.KernelIdeal.Value
import proofs.«120675_j65481071400600_2_alg».proof.Proof.Gen.ReferenceIdeal.Run
import proofs.«120675_j65481071400600_2_alg».proof.Proof.Gen.ReferenceIdeal.Read
import proofs.«120675_j65481071400600_2_alg».proof.Proof.KernelValue
import proofs.«120675_j65481071400600_2_alg».proof.Proof.RefIsRbf
import Idealize.ShloMosaic.Adequacy
import Idealize.ShloMosaic.Init

noncomputable section

namespace Cert.Proof

open Idealize.ShloMosaic Idealize.ShloMosaic.TcCoe Idealize.SL.Sem

/-- The tiled program, read word by word, runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The plain program is a straight line of array operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- No operation of the tiled program was rewritten for the reading over the extended reals. -/
theorem preserves : Cert.preserves_Kernel_KernelIdeal := trivial

/-- Over the extended reals, from arguments that agree, both programs end with the result array at the one
    function `Cert.Rbf.rbf` of the arguments: the tiled program tile by tile, the plain one operation by operation. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.IsRbf.result_is_rbf, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
